-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x64x64 : Shape := ⟨4, ![32, 256, 64, 64]⟩
abbrev S16x256 : Shape := ⟨2, ![16, 256]⟩
abbrev S16 : Shape := ⟨1, ![16]⟩
abbrev S256x16 : Shape := ⟨2, ![256, 16]⟩
abbrev S256 : Shape := ⟨1, ![256]⟩
abbrev S_ : Shape := ⟨0, ![]⟩

class Facts : Prop where
  bcast_S_S32x256x64x64 : S_.BroadcastsInDim S32x256x64x64 (![] : Fin 0 → Fin S32x256x64x64.rank)
  reducesTo_S32x256x64x64_S_d0_1_2_3 : S32x256x64x64.ReducesTo [0, 1, 2, 3] S_
  h_S_ : 0 < S_.numel
  bcast_S_S16x256 : S_.BroadcastsInDim S16x256 (![] : Fin 0 → Fin S16x256.rank)
  reducesTo_S16x256_S_d0_1 : S16x256.ReducesTo [0, 1] S_
  bcast_S_S16 : S_.BroadcastsInDim S16 (![] : Fin 0 → Fin S16.rank)
  reducesTo_S16_S_d0 : S16.ReducesTo [0] S_
  bcast_S_S256x16 : S_.BroadcastsInDim S256x16 (![] : Fin 0 → Fin S256x16.rank)
  reducesTo_S256x16_S_d0_1 : S256x16.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_v13 : IVec S_ 1) (main_v16 : IVec S256x16 1) : IVec S_ 1 :=
  let main_c_5 : IVec S_ 1 := constantI S_ 1 1#1
  let main_v17 : IVec S_ 1 := (fun x v => Host.reduce IntOp.andi x v reducesTo_S256x16_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S32x256x64x64 .f32) (main_arg1 : FVec F S16x256 .f32) (main_arg2 : FVec F S16 .f32) (main_arg3 : FVec F S256x16 .f32) (main_arg4 : FVec F S256 .f32) : IVec S_ 1 :=
  let main_v0 : FVec F S32x256x64x64 .f32 := Host.absf main_arg0
  let main_cst : FVec F S_ .f32 := constant S_ .f32 0x7F800000#32
  let main_v1 : FVec F S32x256x64x64 .f32 := broadcastInDim S32x256x64x64 ![] bcast_S_S32x256x64x64 main_cst
  let main_v2 : IVec S32x256x64x64 1 := cmpf .olt main_v0 main_v1
  let main_c : IVec S_ 1 := constantI S_ 1 1#1
  let main_v3 : IVec S_ 1 := (fun x v => Host.reduce IntOp.andi x v reducesTo_S32x256x64x64_S_d0_1_2_3 h_S_) main_v2 main_c
  let main_v4 : FVec F S16x256 .f32 := Host.absf main_arg1
  let main_cst_0 : FVec F S_ .f32 := constant S_ .f32 0x7F800000#32
  let main_v5 : FVec F S16x256 .f32 := broadcastInDim S16x256 ![] bcast_S_S16x256 main_cst_0
  let main_v6 : IVec S16x256 1 := cmpf .olt main_v4 main_v5
  let main_c_1 : IVec S_ 1 := constantI S_ 1 1#1
  let main_v7 : IVec S_ 1 := (fun x v => Host.reduce IntOp.andi x v reducesTo_S16x256_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S256x16 .f32 := Host.absf main_arg3
  let main_cst_4 : FVec F S_ .f32 := constant S_ .f32 0x7F800000#32
  let main_v15 : FVec F S256x16 .f32 := broadcastInDim S256x16 ![] bcast_S_S256x16 main_cst_4
  let main_v16 : IVec S256x16 1 := cmpf .olt main_v14 main_v15
  fn_part1 (F := F) main_arg4 main_v13 main_v16
-- ==== Kernel.lean ====
abbrev S32x256x64x64 : Shape := ⟨4, ![32, 256, 64, 64]⟩
abbrev S16x256 : Shape := ⟨2, ![16, 256]⟩
abbrev S16 : Shape := ⟨1, ![16]⟩
abbrev S256x16 : Shape := ⟨2, ![256, 16]⟩
abbrev S256 : Shape := ⟨1, ![256]⟩
abbrev S32x256 : Shape := ⟨2, ![32, 256]⟩
abbrev S8x128x16x64 : Shape := ⟨4, ![8, 128, 16, 64]⟩
abbrev S8x128 : Shape := ⟨2, ![8, 128]⟩
abbrev S8x128x16 : Shape := ⟨3, ![8, 128, 16]⟩
abbrev S32x16 : Shape := ⟨2, ![32, 16]⟩
abbrev S1x16 : Shape := ⟨2, ![1, 16]⟩
abbrev S_ : Shape := ⟨0, ![]⟩
abbrev S1x256 : Shape := ⟨2, ![1, 256]⟩
abbrev S8x256x8x64 : Shape := ⟨4, ![8, 256, 8, 64]⟩
abbrev S8x256 : Shape := ⟨2, ![8, 256]⟩
abbrev S8x256x1x1 : Shape := ⟨4, ![8, 256, 1, 1]⟩

abbrev nBuf : Space → Nat
  | .hbm => 26
  | .vmem => 10
  | .smem => 0
  | _ => 0

abbrev bufTy : (tb : Table) → Fin (tcTables nBuf tb) → BufTy
  | .hbm, ⟨0, _⟩ => ⟨S32x256x64x64, .f32⟩
  | .hbm, ⟨1, _⟩ => ⟨S16x256, .f32⟩
  | .hbm, ⟨2, _⟩ => ⟨S16, .f32⟩
  | .hbm, ⟨3, _⟩ => ⟨S256x16, .f32⟩
  | .hbm, ⟨4, _⟩ => ⟨S256, .f32⟩
  | .hbm, ⟨5, _⟩ => ⟨S32x256, .f32⟩
  | .hbm, ⟨6, _⟩ => ⟨S32x16, .f32⟩
  | .hbm, ⟨7, _⟩ => ⟨S1x16, .f32⟩
  | .hbm, ⟨8, _⟩ => ⟨S32x16, .f32⟩
  | .hbm, ⟨9, _⟩ => ⟨S32x16, .f32⟩
  | .hbm, ⟨10, _⟩ => ⟨S_, .f32⟩
  | .hbm, ⟨11, _⟩ => ⟨S32x16, .f32⟩
  | .hbm, ⟨12, _⟩ => ⟨S32x16, .f32⟩
  | .hbm, ⟨13, _⟩ => ⟨S32x256, .f32⟩
  | .hbm, ⟨14, _⟩ => ⟨S1x256, .f32⟩
  | .hbm, ⟨15, _⟩ => ⟨S32x256, .f32⟩
  | .hbm, ⟨16, _⟩ => ⟨S32x256, .f32⟩
  | .hbm, ⟨17, _⟩ => ⟨S32x256, .f32⟩
  | .hbm, ⟨18, _⟩ => ⟨S32x256, .f32⟩
  | .hbm, ⟨19, _⟩ => ⟨S_, .f32⟩
  | .hbm, ⟨20, _⟩ => ⟨S32x256, .f32⟩
  | .hbm, ⟨21, _⟩ => ⟨S32x256, .f32⟩
  | .hbm, ⟨22, _⟩ => ⟨S_, .f32⟩
  | .hbm, ⟨23, _⟩ => ⟨S32x256, .f32⟩
  | .hbm, ⟨24, _⟩ => ⟨S32x256, .f32⟩
  | .hbm, ⟨25, _⟩ => ⟨S32x256x64x64, .f32⟩
  | .local _ .vmem, ⟨0, _⟩ => ⟨S8x128x16x64, .f32⟩
  | .local _ .vmem, ⟨1, _⟩ => ⟨S8x128x16x64, .f32⟩
  | .local _ .vmem, ⟨2, _⟩ => ⟨S8x128, .f32⟩
  | .local _ .vmem, ⟨3, _⟩ => ⟨S8x128, .f32⟩
  | .local _ .vmem, ⟨4, _⟩ => ⟨S8x256x8x64, .f32⟩
  | .local _ .vmem, ⟨5, _⟩ => ⟨S8x256x8x64, .f32⟩
  | .local _ .vmem, ⟨6, _⟩ => ⟨S8x256, .f32⟩
  | .local _ .vmem, ⟨7, _⟩ => ⟨S8x256, .f32⟩
  | .local _ .vmem, ⟨8, _⟩ => ⟨S8x256x8x64, .f32⟩
  | .local _ .vmem, ⟨9, _⟩ => ⟨S8x256x8x64, .f32⟩
  | _, _ => ⟨S32x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_cst : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨3, ![4, 2, 4], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S8x128x16x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev grid1 : Pipeline.Grid := ⟨2, ![4, 8], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage1_0 : Fin 2 → Memref sig .tc .vmem S8x256x8x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S8x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S8x256x8x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  inb_S8x128_S8x128_0_0 : ∀ a, (![0, 0] : Fin 2 → Nat) a + S8x128.size a ≤ S8x128.size a
  h_S8x128 : 0 < S8x128.numel
  inb_S8x128x16x64_S8x128x16x64_0_0_0_0 : ∀ a, (![0, 0, 0, 0] : Fin 4 → Nat) a + S8x128x16x64.size a ≤ S8x128x16x64.size a
  h_S8x128x16x64 : 0 < S8x128x16x64.numel
  shapeCasts_S8x128_S8x128 : S8x128.ShapeCasts S8x128
  reduces_S8x128x16x64_S8x128x16 : S8x128x16x64.Reduces [3] S8x128x16
  reduces_S8x128x16_S8x128 : S8x128x16.Reduces [2] S8x128
  bcast_S16_S1x16_1 : S16.BroadcastsInDim S1x16 (![1] : Fin 1 → Fin S1x16.rank)
  bcast_S1x16_S32x16_0_1 : S1x16.BroadcastsInDim S32x16 (![0, 1] : Fin 2 → Fin S32x16.rank)
  bcast_S_S32x16 : S_.BroadcastsInDim S32x16 (![] : Fin 0 → Fin S32x16.rank)
  bcast_S256_S1x256_1 : S256.BroadcastsInDim S1x256 (![1] : Fin 1 → Fin S1x256.rank)
  bcast_S1x256_S32x256_0_1 : S1x256.BroadcastsInDim S32x256 (![0, 1] : Fin 2 → Fin S32x256.rank)
  bcast_S_S32x256 : S_.BroadcastsInDim S32x256 (![] : Fin 0 → Fin S32x256.rank)
  inb_S8x256x8x64_S8x256x8x64_0_0_0_0 : ∀ a, (![0, 0, 0, 0] : Fin 4 → Nat) a + S8x256x8x64.size a ≤ S8x256x8x64.size a
  h_S8x256x8x64 : 0 < S8x256x8x64.numel
  inb_S8x256_S8x256_0_0 : ∀ a, (![0, 0] : Fin 2 → Nat) a + S8x256.size a ≤ S8x256.size a
  h_S8x256 : 0 < S8x256.numel
  shapeCasts_S8x256_S8x256 : S8x256.ShapeCasts S8x256
  shapeCasts_S8x256_S8x256x1x1 : S8x256.ShapeCasts S8x256x1x1
  shapeCasts_S8x256x1x1_S8x256x1x1 : S8x256x1x1.ShapeCasts S8x256x1x1
  broadcasts_S8x256x1x1_S8x256x8x64 : S8x256x1x1.Broadcasts S8x256x8x64
  dot_S32x256_S16x256_S32x16_1_1_0_0_n_n_wf : DotDims.WF S32x256 S16x256 S32x16 [1] [1] [0] [0] [] []
  dot_S32x16_S256x16_S32x256_1_1_0_0_n_n_wf : DotDims.WF S32x16 S256x16 S32x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128x16x64.size a ≤ S32x256x64x64.size a
  hwx0_0 : ∀ i : grid0.Coords, EltTy.bits .f32 = 32 ∨ (Rect.block (s := S32x256x64x64) S8x128x16x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128.size a ≤ S32x256.size a
  hwx0_1 : ∀ i : grid0.Coords, EltTy.bits .f32 = 32 ∨ (Rect.block (s := S32x256) S8x128.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x256x8x64.size a ≤ S32x256x64x64.size a
  hwx1_0 : ∀ i : grid1.Coords, EltTy.bits .f32 = 32 ∨ (Rect.block (s := S32x256x64x64) S8x256x8x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x256.size a ≤ S32x256.size a
  hwx1_1 : ∀ i : grid1.Coords, EltTy.bits .f32 = 32 ∨ (Rect.block (s := S32x256) S8x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x256x8x64.size a ≤ S32x256x64x64.size a
  hwx1_2 : ∀ i : grid1.Coords, EltTy.bits .f32 = 32 ∨ (Rect.block (s := S32x256x64x64) S8x256x8x64.size (cc1_transform_2 i) (hinb1_2 i)).WholeWords (EltTy.packing .f32)

variable [Facts₀]

def dot_S32x256_S16x256_S32x16_1_1_0_0_n_n : DotDims S32x256 S16x256 S32x16 where
  lhsContracting := [1]
  rhsContracting := [1]
  lhsNonContracting := [0]
  rhsNonContracting := [0]
  lhsBatch := []
  rhsBatch := []
  wf := dot_S32x256_S16x256_S32x16_1_1_0_0_n_n_wf
def dot_S32x16_S256x16_S32x256_1_1_0_0_n_n : DotDims S32x16 S256x16 S32x256 where
  lhsContracting := [1]
  rhsContracting := [1]
  lhsNonContracting := [0]
  rhsNonContracting := [0]
  lhsBatch := []
  rhsBatch := []
  wf := dot_S32x16_S256x16_S32x256_1_1_0_0_n_n_wf

abbrev win0_0 : Pipeline.Window sig grid0 :=
  Pipeline.Window.ofSpec (Memref.whole main_arg0) S8x128x16x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S8x256x8x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S8x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S8x256x8x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S32x256x64x64 : Shape := ⟨4, ![32, 256, 64, 64]⟩
abbrev S16x256 : Shape := ⟨2, ![16, 256]⟩
abbrev S16 : Shape := ⟨1, ![16]⟩
abbrev S256x16 : Shape := ⟨2, ![256, 16]⟩
abbrev S256 : Shape := ⟨1, ![256]⟩
abbrev S_ : Shape := ⟨0, ![]⟩
abbrev S32x256 : Shape := ⟨2, ![32, 256]⟩
abbrev S32x16 : Shape := ⟨2, ![32, 16]⟩
abbrev S1x16 : Shape := ⟨2, ![1, 16]⟩
abbrev S1x256 : Shape := ⟨2, ![1, 256]⟩
abbrev S32x256x1x1 : Shape := ⟨4, ![32, 256, 1, 1]⟩

abbrev nBuf : Space → Nat
  | .hbm => 32
  | .vmem => 0
  | .smem => 0
  | _ => 0

abbrev bufTy : (tb : Table) → Fin (tcTables nBuf tb) → BufTy
  | .hbm, ⟨0, _⟩ => ⟨S32x256x64x64, .f32⟩
  | .hbm, ⟨1, _⟩ => ⟨S16x256, .f32⟩
  | .hbm, ⟨2, _⟩ => ⟨S16, .f32⟩
  | .hbm, ⟨3, _⟩ => ⟨S256x16, .f32⟩
  | .hbm, ⟨4, _⟩ => ⟨S256, .f32⟩
  | .hbm, ⟨5, _⟩ => ⟨S_, .f32⟩
  | .hbm, ⟨6, _⟩ => ⟨S32x256, .f32⟩
  | .hbm, ⟨7, _⟩ => ⟨S_, .f32⟩
  | .hbm, ⟨8, _⟩ => ⟨S32x256, .f32⟩
  | .hbm, ⟨9, _⟩ => ⟨S32x256, .f32⟩
  | .hbm, ⟨10, _⟩ => ⟨S32x16, .f32⟩
  | .hbm, ⟨11, _⟩ => ⟨S1x16, .f32⟩
  | .hbm, ⟨12, _⟩ => ⟨S32x16, .f32⟩
  | .hbm, ⟨13, _⟩ => ⟨S32x16, .f32⟩
  | .hbm, ⟨14, _⟩ => ⟨S_, .f32⟩
  | .hbm, ⟨15, _⟩ => ⟨S32x16, .f32⟩
  | .hbm, ⟨16, _⟩ => ⟨S32x16, .f32⟩
  | .hbm, ⟨17, _⟩ => ⟨S32x256, .f32⟩
  | .hbm, ⟨18, _⟩ => ⟨S1x256, .f32⟩
  | .hbm, ⟨19, _⟩ => ⟨S32x256, .f32⟩
  | .hbm, ⟨20, _⟩ => ⟨S32x256, .f32⟩
  | .hbm, ⟨21, _⟩ => ⟨S32x256, .f32⟩
  | .hbm, ⟨22, _⟩ => ⟨S32x256, .f32⟩
  | .hbm, ⟨23, _⟩ => ⟨S_, .f32⟩
  | .hbm, ⟨24, _⟩ => ⟨S32x256, .f32⟩
  | .hbm, ⟨25, _⟩ => ⟨S32x256, .f32⟩
  | .hbm, ⟨26, _⟩ => ⟨S_, .f32⟩
  | .hbm, ⟨27, _⟩ => ⟨S32x256, .f32⟩
  | .hbm, ⟨28, _⟩ => ⟨S32x256, .f32⟩
  | .hbm, ⟨29, _⟩ => ⟨S32x256x1x1, .f32⟩
  | .hbm, ⟨30, _⟩ => ⟨S32x256x64x64, .f32⟩
  | .hbm, ⟨31, _⟩ => ⟨S32x256x64x64, .f32⟩
  | _, _ => ⟨S32x256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_call0_cst : Ref sig .tc := ⟨.hbm, 14, rfl⟩
abbrev main_call0_v0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩

abbrev nD : Nat := 1
abbrev τ : Topo := Topo.v7x

variable {F : FTy → Type} [FloatOps F]

class Facts₀ : Prop where
  reducesTo_S32x256x64x64_S32x256_d2_3 : S32x256x64x64.ReducesTo [2, 3] S32x256
  h_S_ : 0 < S_.numel
  bcast_S_S32x256 : S_.BroadcastsInDim S32x256 (![] : Fin 0 → Fin S32x256.rank)
  bcast_S16_S1x16_1 : S16.BroadcastsInDim S1x16 (![1] : Fin 1 → Fin S1x16.rank)
  bcast_S1x16_S32x16_0_1 : S1x16.BroadcastsInDim S32x16 (![0, 1] : Fin 2 → Fin S32x16.rank)
  bcast_S_S32x16 : S_.BroadcastsInDim S32x16 (![] : Fin 0 → Fin S32x16.rank)
  bcast_S256_S1x256_1 : S256.BroadcastsInDim S1x256 (![1] : Fin 1 → Fin S1x256.rank)
  bcast_S1x256_S32x256_0_1 : S1x256.BroadcastsInDim S32x256 (![0, 1] : Fin 2 → Fin S32x256.rank)
  bcast_S32x256_S32x256x1x1_0_1 : S32x256.BroadcastsInDim S32x256x1x1 (![0, 1] : Fin 2 → Fin S32x256x1x1.rank)
  bcast_S32x256x1x1_S32x256x64x64_0_1_2_3 : S32x256x1x1.BroadcastsInDim S32x256x64x64 (![0, 1, 2, 3] : Fin 4 → Fin S32x256x64x64.rank)
  dot_S32x256_S16x256_S32x16_1_1_0_0_n_n_wf : DotDims.WF S32x256 S16x256 S32x16 [1] [1] [0] [0] [] []
  dot_S32x16_S256x16_S32x256_1_1_0_0_n_n_wf : DotDims.WF S32x16 S256x16 S32x256 [1] [1] [0] [0] [] []

variable [Facts₀]

def dot_S32x256_S16x256_S32x16_1_1_0_0_n_n : DotDims S32x256 S16x256 S32x16 where
  lhsContracting := [1]
  rhsContracting := [1]
  lhsNonContracting := [0]
  rhsNonContracting := [0]
  lhsBatch := []
  rhsBatch := []
  wf := dot_S32x256_S16x256_S32x16_1_1_0_0_n_n_wf
def dot_S32x16_S256x16_S32x256_1_1_0_0_n_n : DotDims S32x16 S256x16 S32x256 where
  lhsContracting := [1]
  rhsContracting := [1]
  lhsNonContracting := [0]
  rhsNonContracting := [0]
  lhsBatch := []
  rhsBatch := []
  wf := dot_S32x16_S256x16_S32x256_1_1_0_0_n_n_wf

class Facts : Prop extends Facts₀ where

variable [Facts]
-- ==== Proof.KernelRun.lean ====
/-
  The idealized kernel's run with its result array named.

  @main is five segments: the pooling region, three stretches of host operations (the two small matrix products, the
  clip at zero, the logistic gate), and the scaling region.  Every segment leaves each unscoped buffer at a known
  contents, a fold from the launch memory; after the last segment the result buffer holds what the scaling region's
  write-backs leave, and the five argument buffers hold what they were launched with.  This module states the run
  with the result buffer at that contents, beside the unchanged arguments.
-/
import proofs.«105536_j60610578481199_2_alg».proof.Proof.Gen.KernelIdeal.Frame

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the argument buffers as launched. -/
theorem run_named : θ_run defs (onTc (τ := τ) (main (F := F))) ⟨m, fun _ => 0, ρ⟩ (fun r => ∀ c : Dev nD,
      r.2.mem ((c.tc : Thread nD τ).loc main_v16) = W5 m ρ c (Proc.devRef .tc main_v16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v16 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c)⟩)

end Cert.KernelIdeal.Run

end
-- ==== Proof.PoolCases.lean ====
/-
  What one step of the pooling kernel leaves in its output block.

  The pooling kernel's output block, 8 batch rows by 128 channels, stays in place while the kernel walks the four
  row-steps of a plane.  A step adds to the block the sum of its 8 × 128 × 16 × 64 input block over the last two axes
  (sixteen rows of 64 lanes each).  On the first step the block is first cleared, so it ends at zero plus that sum; on a
  middle step it ends at its previous contents plus that sum; on the last step the total is, besides, multiplied by the
  constant 2⁻¹².  These hold for any float type: they only say which stores cover the block and what they wrote.
-/
import proofs.«105536_j60610578481199_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pool

open Cert.KernelIdeal Cert.KernelIdeal.Gen

variable {F : FTy → Type} [FloatOps F]

theorem hz : (![0, 0] : Fin 2 → Nat) = fun _ => 0 := funext fun a => by fin_cases a <;> rfl
theorem hz4 : (![0, 0, 0, 0] : Fin 4 → Nat) = fun _ => 0 := funext fun a => by fin_cases a <;> rfl

/-- The cleared block: every entry the zero word. -/
abbrev zero : Vec F S8x128 .f32 := broadcast S8x128 (Scalar.ofBits .f32 0x00000000#32)

/-- An input block summed over its lanes, then over its sixteen rows: one number per batch row and channel. -/
def blockSum (x : Vec F S8x128x16x64 .f32) : FVec F S8x128 .f32 :=
  multiReduction .add [2] S8x128 (multiReduction .add [3] S8x128x16 x 0x00000000#32 reduces_S8x128x16x64_S8x128x16 (.inl rfl) rfl)
    0x00000000#32 reduces_S8x128x16_S8x128 (.inl rfl) rfl

/-- A middle step: the block holding `xo` ends at `xo` plus the input block's sum. -/
theorem out_B (c : Dev nD) (i : grid0.Coords) (a3 : Memref sig .tc .vmem S8x128x16x64 .f32) (h3 : a3.IsWhole)
    (a4 : Memref sig .tc .vmem S8x128 .f32) (h4 : a4.IsWhole) (hc0 : ¬cond0_0 i) (hc1 : ¬cond0_1 i)
    (x : Vec F S8x128x16x64 .f32) (xo : Vec F S8x128 .f32) :
    out0_B_1 c i a3 h3 a4 h4 hc0 hc1 x xo = addf xo (blockSum x) := by
  unfold out0_B_1
  rw [View.read_writes_eq_canon _ _ _ (cover0_B_1 c i a3 h3 a4 h4 hc0 hc1 x xo)]
  unfold kernelRun0_B
  dsimp only
  rw [View.canon_unit_zero hz]
  unfold k0_pay2 blockSum
  simp only [View.readAt_eq_ld, h3.read_unread, h4.read_unread, View.ld_unit_zero (S := S8x128) hz,
    View.ld_unit_zero (S := S8x128x16x64) hz4, shapeCast_self]

/-- The first step: the block is cleared, read back, and ends at zero plus the input block's sum. -/
theorem out_A (c : Dev nD) (i : grid0.Coords) (a3 : Memref sig .tc .vmem S8x128x16x64 .f32) (h3 : a3.IsWhole)
    (a4 : Memref sig .tc .vmem S8x128 .f32) (h4 : a4.IsWhole) (hc0 : cond0_0 i) (hc1 : ¬cond0_1 i)
    (x : Vec F S8x128x16x64 .f32) :
    out0_A_1 c i a3 h3 a4 h4 hc0 hc1 x = addf zero (blockSum x) := by
  unfold out0_A_1
  rw [View.read_writes_eq_canon _ _ _ (cover0_A_1 c i a3 h3 a4 h4 hc0 hc1 x)]
  unfold kernelRun0_A
  dsimp only
  sl_unfold_words
  rw [View.canon_cons_unit_zero (S := S8x128) hz, View.readCov_unit_zero (S := S8x128) _ hz]
  unfold k0_pay2 k0_pay1 blockSum
  simp only [View.readAt_eq_ld, h3.read_unread, View.ld_unit_zero (S := S8x128) hz,
    View.ld_unit_zero (S := S8x128x16x64) hz4, shapeCast_self]

/-- The last step: the block holding `xo` takes the input block's sum, is read back, and ends at that total times 2⁻¹². -/
theorem out_C (c : Dev nD) (i : grid0.Coords) (a3 : Memref sig .tc .vmem S8x128x16x64 .f32) (h3 : a3.IsWhole)
    (a4 : Memref sig .tc .vmem S8x128 .f32) (h4 : a4.IsWhole) (hc0 : ¬cond0_0 i) (hc1 : cond0_1 i)
    (x : Vec F S8x128x16x64 .f32) (xo : Vec F S8x128 .f32) :
    out0_C_1 c i a3 h3 a4 h4 hc0 hc1 x xo
      = mulf (addf xo (blockSum x)) (broadcast S8x128 (Scalar.ofBits .f32 0x39800000#32)) := by
  unfold out0_C_1
  rw [View.read_writes_eq_canon _ _ _ (cover0_C_1 c i a3 h3 a4 h4 hc0 hc1 x xo)]
  unfold kernelRun0_C
  dsimp only
  sl_unfold_words
  rw [View.canon_cons_unit_zero (S := S8x128) hz, View.readCov_unit_zero (S := S8x128) _ hz]
  unfold k0_pay3 k0_pay2 blockSum
  simp only [View.readAt_eq_ld, h3.read_unread, h4.read_unread, View.ld_unit_zero (S := S8x128) hz,
    View.ld_unit_zero (S := S8x128x16x64) hz4, shapeCast_self]

end Cert.KernelIdeal.Pool

end
-- ==== Proof.LibBlockedSum.lean ====
/-
  A sum over a long axis taken block by block.

  A kernel that walks a reduction axis of length `nb * bs` in `nb` blocks of `bs` consecutive positions, adding each
  block's partial sum into an accumulator, computes the same number as one sum over the whole axis: position `k` of the
  long axis is position `l` of block `kb` exactly when `k = kb * bs + l`.  The statement holds in any commutative
  additive monoid — in particular for extended reals, where no finiteness is needed — and is phrased for a summand
  given on the natural numbers, so that it applies whatever index types the two sides use.
-/
import Mathlib.Algebra.BigOperators.Fin
import Mathlib.Logic.Equiv.Fin.Basic

namespace Cert.LibBlockedSum

/-- Summing `f` over block `kb` and position `l` inside the block, at the flat position `kb * bs + l`, is summing `f`
    over the flat positions `0 … nb * bs - 1`. -/
theorem sum_blocks {M : Type} [AddCommMonoid M] (nb bs : ℕ) (f : ℕ → M) :
    (∑ kb : Fin nb, ∑ l : Fin bs, f (kb.val * bs + l.val)) = ∑ k : Fin (nb * bs), f k.val := by
  rw [← (finProdFinEquiv : Fin nb × Fin bs ≃ Fin (nb * bs)).sum_comp (fun k => f k.val), Fintype.sum_prod_type]
  refine Finset.sum_congr rfl fun a _ => Finset.sum_congr rfl fun b _ => ?_
  refine congrArg f ?_
  simp only [finProdFinEquiv_apply_val]
  rw [Nat.mul_comm, Nat.add_comm]

/-- The accumulator form: starting from `z` and adding the blocks' partial sums one after the other (a left fold over
    the blocks in order) ends at `z` plus the whole sum. -/
theorem foldl_blocks {M : Type} [AddCommMonoid M] (nb bs : ℕ) (f : ℕ → M) (z : M) :
    ((List.finRange nb).foldl (fun acc kb => acc + ∑ l : Fin bs, f (kb.val * bs + l.val)) z)
      = z + ∑ k : Fin (nb * bs), f k.val := by
  rw [← sum_blocks nb bs f]
  have h : ∀ (L : List (Fin nb)) (z : M),
      L.foldl (fun acc kb => acc + ∑ l : Fin bs, f (kb.val * bs + l.val)) z
        = z + (L.map fun kb => ∑ l : Fin bs, f (kb.val * bs + l.val)).sum := by
    intro L
    induction L with
    | nil => intro z; simp
    | cons a L ih => intro z; rw [List.foldl_cons, ih, List.map_cons, List.sum_cons, add_assoc]
  rw [h, ← List.ofFn_eq_map, List.sum_ofFn]

end Cert.LibBlockedSum
-- ==== Proof.PoolMean.lean ====
/-
  The mean over a plane of 64 rows, accumulated in four blocks of sixteen rows.

  The pooling kernel meets one channel's 64 × 64 plane in four steps of sixteen rows: it starts from zero, adds each
  step's partial sum to a running total, and after the fourth step multiplies the total by 2⁻¹².  The reference adds the
  whole plane to zero and divides by 4096.  On the extended reals addition is commutative and associative whatever the
  summands are, so the running total is the whole sum; and dividing by the real 4096 is multiplying by the real 1/4096,
  whatever the dividend is.  No summand need be finite.  The summand is given on the natural numbers, so the law
  applies whatever index types the two sides use.
-/
import Idealize.ShloMosaic.PureOps.Ideal
import Idealize.ShloMosaic.Lib.ValueIdx
import proofs.«105536_j60610578481199_2_alg».proof.Proof.LibBlockedSum

noncomputable section

namespace Cert.PoolMean

open Idealize.ShloMosaic Idealize.ShloMosaic.ValueIdx

/-- The word `0x45800000` is the real 4096 = 2¹². -/
theorem ofBits_4096 : Ideal.ofBits .f32 0x45800000#32 = ((4096 : ℝ) : EReal) := by
  simp [Ideal.ofBits, Ideal.ieee, -EReal.coe_mul]; norm_num

/-- The word `0x39800000` is the real 1/4096 = 2⁻¹², exactly. -/
theorem ofBits_inv4096 : Ideal.ofBits .f32 0x39800000#32 = ((1 / 4096 : ℝ) : EReal) := by
  simp [Ideal.ofBits, Ideal.ieee, -EReal.coe_mul]; norm_num

/-- Four blocks of sixteen rows, added one after the other to the zero word and the total scaled by 2⁻¹², are the
    quotient by 4096 of the zero word plus the sum over all 64 rows. -/
theorem mean_blocks (g : ℕ → EReal) :
    ((((Ideal.ofBits .f32 0x00000000#32 + ∑ l : Fin 16, g (0 * 16 + l.val)) + ∑ l : Fin 16, g (1 * 16 + l.val))
        + ∑ l : Fin 16, g (2 * 16 + l.val)) + ∑ l : Fin 16, g (3 * 16 + l.val)) * Ideal.ofBits .f32 0x39800000#32
      = Ideal.div (Ideal.ofBits .f32 0x00000000#32 + ∑ k : Fin 64, g k.val) (Ideal.ofBits .f32 0x45800000#32) := by
  rw [ofBits_4096, ofBits_inv4096, Ideal.div_coe (by norm_num : (4096 : ℝ) ≠ 0)]
  congr 1
  have h : (∑ kb : Fin 4, ∑ l : Fin 16, g (kb.val * 16 + l.val)) = ∑ k : Fin 64, g k.val :=
    Cert.LibBlockedSum.sum_blocks 4 16 g
  rw [← h, Fin.sum_univ_four]
  simp only [add_assoc]
  rfl

/-- The mean of every 64 × 64 plane of a [32, 256, 64, 64] array, as the reference spells it: the zero word plus the sum
    of the plane's entries, divided by the word of 4096. -/
def planeMean (X : (⟨4, ![32, 256, 64, 64]⟩ : Shape).Idx → EReal) : (⟨2, ![32, 256]⟩ : Shape).Idx → EReal :=
  fun bc => Ideal.div (Ideal.ofBits .f32 0x00000000#32
      + ∑ h : Fin 64, ∑ w : Fin 64, X (ix4 (n0 := 32) (n1 := 256) (bc 0) (bc 1) h w)) (Ideal.ofBits .f32 0x45800000#32)

/-- The plane mean taken in four steps.  If `r k l` is the sum of row `16 k + l` of plane `(b, c)`, for the four
    row blocks `k` and the sixteen rows `l` of each, then the four blocks' sums added one after the other to the zero
    word, and the total scaled by 2⁻¹², are the plane's mean. -/
theorem planeMean_blocks (X : (⟨4, ![32, 256, 64, 64]⟩ : Shape).Idx → EReal) (b : Fin 32) (c : Fin 256)
    (r0 r1 r2 r3 : Fin 16 → EReal)
    (h0 : ∀ l : Fin 16, r0 l = ∑ w : Fin 64, X (ix4 b c (⟨0 * 16 + l.val, by omega⟩ : Fin 64) w))
    (h1 : ∀ l : Fin 16, r1 l = ∑ w : Fin 64, X (ix4 b c (⟨1 * 16 + l.val, by omega⟩ : Fin 64) w))
    (h2 : ∀ l : Fin 16, r2 l = ∑ w : Fin 64, X (ix4 b c (⟨2 * 16 + l.val, by omega⟩ : Fin 64) w))
    (h3 : ∀ l : Fin 16, r3 l = ∑ w : Fin 64, X (ix4 b c (⟨3 * 16 + l.val, by omega⟩ : Fin 64) w)) :
    ((((Ideal.ofBits .f32 0x00000000#32 + ∑ l : Fin 16, r0 l) + ∑ l : Fin 16, r1 l) + ∑ l : Fin 16, r2 l)
        + ∑ l : Fin 16, r3 l) * Ideal.ofBits .f32 0x39800000#32
      = planeMean X (ix2 b c) := by
  let g : ℕ → EReal := fun n => if hn : n < 64 then ∑ w : Fin 64, X (ix4 b c (⟨n, hn⟩ : Fin 64) w) else 0
  have hg : ∀ (n : ℕ) (hn : n < 64), g n = ∑ w : Fin 64, X (ix4 b c (⟨n, hn⟩ : Fin 64) w) := fun n hn => dif_pos hn
  have e0 : (∑ l : Fin 16, r0 l) = ∑ l : Fin 16, g (0 * 16 + l.val) :=
    Finset.sum_congr rfl fun l _ => (h0 l).trans (hg _ _).symm
  have e1 : (∑ l : Fin 16, r1 l) = ∑ l : Fin 16, g (1 * 16 + l.val) :=
    Finset.sum_congr rfl fun l _ => (h1 l).trans (hg _ _).symm
  have e2 : (∑ l : Fin 16, r2 l) = ∑ l : Fin 16, g (2 * 16 + l.val) :=
    Finset.sum_congr rfl fun l _ => (h2 l).trans (hg _ _).symm
  have e3 : (∑ l : Fin 16, r3 l) = ∑ l : Fin 16, g (3 * 16 + l.val) :=
    Finset.sum_congr rfl fun l _ => (h3 l).trans (hg _ _).symm
  rw [e0, e1, e2, e3, mean_blocks g]
  unfold planeMean
  refine congrArg (fun s => Ideal.div (Ideal.ofBits .f32 0x00000000#32 + s) (Ideal.ofBits .f32 0x45800000#32)) ?_
  exact Finset.sum_congr rfl fun k _ => hg k.val k.isLt

end Cert.PoolMean

end
-- ==== Proof.LibPlanes.lean ====
/-
  Planes and their per-plane numbers, read at an index, for any extents.

  An array of shape [a, b, c, d] is an a × b table of planes, each of c rows and d lanes; a matrix of shape [a, b] holds
  one number per plane.  Four readings, each at an index written by its coordinates:

  * the matrix viewed as [a, b, 1, 1] reads, at (i, j, 0, 0), the matrix at (i, j);
  * that view spread over the planes, [a, b, 1, 1] to [a, b, c, d], reads at (i, j, p, q) the view at (i, j, 0, 0) —
    every entry of plane (i, j) sees the plane's own number;
  * at the exact extended reals, summing the array over its lanes and then over its rows leaves at (i, j) the double
    sum over p and q of the array at (i, j, p, q);
  * at the exact extended reals, the host's sum over the two plane axes from an initial value leaves at (i, j) that
    value plus the same double sum.
-/
import Idealize.ShloMosaic.Lib.Pipeline.Value
import Idealize.ShloMosaic.Lib.ValueIdx
import Idealize.ShloMosaic.PureOps.Ideal.Laws

namespace Cert.LibPlanes

open Idealize.ShloMosaic Idealize.ShloMosaic.ValueIdx

variable {α : Type}

/-- An `[a, b]` matrix cast to `[a, b, 1, 1]` reads, at `(i, j, u, v)`, the matrix at `(i, j)`: the two indices have
    the same row-major position. -/
theorem shapeCast_ab_ab11_apply {a b : ℕ} (x : (⟨2, ![a, b]⟩ : Shape).Idx → α)
    (h : (⟨2, ![a, b]⟩ : Shape).ShapeCasts ⟨4, ![a, b, 1, 1]⟩) (i : Fin a) (j : Fin b) (u v : Fin 1) :
    shapeCast ⟨4, ![a, b, 1, 1]⟩ x h (ix4 i j u v) = x (ix2 i j) :=
  shapeCast_apply x h _ _ (by
    have hu : u.val = 0 := by omega
    have hv : v.val = 0 := by omega
    rw [Shape.rowMajor_val_four, Shape.rowMajor_val_two]
    show i.val * b + j.val = ((i.val * b + j.val) * 1 + u.val) * 1 + v.val
    simp only [hu, hv, Nat.mul_one, Nat.add_zero])

/-- An `[a, b, 1, 1]` array broadcast to `[a, b, c, d]` reads, at `(i, j, p, q)`, the operand at `(i, j, 0, 0)`. -/
theorem broadcastTo_ab11_abcd_apply {a b c d : ℕ} (x : (⟨4, ![a, b, 1, 1]⟩ : Shape).Idx → α)
    (h : (⟨4, ![a, b, 1, 1]⟩ : Shape).Broadcasts ⟨4, ![a, b, c, d]⟩) (i : Fin a) (j : Fin b) (p : Fin c) (q : Fin d) :
    broadcastTo ⟨4, ![a, b, c, d]⟩ x h (ix4 i j p q) = x (ix4 i j (0 : Fin 1) (0 : Fin 1)) := by
  refine broadcastTo_apply x h (ix4 i j p q) (ix4 i j (0 : Fin 1) (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl
  | ⟨3, _⟩ => rfl

/-- At the exact extended reals: an `[a, b, c, d]` array summed over its last axis and the result over its last axis
    again is, at `(i, j)`, the double sum over `p` and `q` of the array at `(i, j, p, q)`. -/
theorem multiReduction_plane_apply {φ : FTy} {a b c d : ℕ} (x : FVec Ideal ⟨4, ![a, b, c, d]⟩ φ) (acc3 acc2 : BitVec φ.bits)
    (h3 : (⟨4, ![a, b, c, d]⟩ : Shape).Reduces [3] ⟨3, ![a, b, c]⟩) (h2 : (⟨3, ![a, b, c]⟩ : Shape).Reduces [2] ⟨2, ![a, b]⟩)
    (hφ : FKind.Formats φ) (hacc3 : acc3 = FKind.add.neutral φ hφ) (hacc2 : acc2 = FKind.add.neutral φ hφ)
    (i : Fin a) (j : Fin b) :
    multiReduction .add [2] ⟨2, ![a, b]⟩ (multiReduction .add [3] ⟨3, ![a, b, c]⟩ x acc3 h3 hφ hacc3) acc2 h2 hφ hacc2 (ix2 i j)
      = ∑ p : Fin c, ∑ q : Fin d, x (ix4 i j p q) := by
  refine (Ideal.multiReduction_add_single _ acc2 h2 hφ hacc2 (ix2 i j)).trans ?_
  refine Finset.sum_congr rfl fun p _ => ?_
  refine (Ideal.multiReduction_add_single x acc3 h3 hφ hacc3 _).trans ?_
  refine Finset.sum_congr rfl fun q _ => ?_
  refine congrArg x (funext fun ax => Fin.ext ?_)
  match ax with
  | ⟨0, _⟩ => rfl
  | ⟨1, _⟩ => rfl
  | ⟨2, _⟩ => rfl
  | ⟨3, _⟩ => rfl

/-- At the exact extended reals: the host's sum of an `[a, b, c, d]` array over its two last axes, from the initial
    value `init`, is at `(i, j)` that value plus the double sum over `p` and `q` of the array at `(i, j, p, q)` — the
    indices that drop to `(i, j)` are exactly the `(i, j, p, q)`. -/
theorem hostReduceAdd_plane_apply {a b c d : ℕ} (x : (⟨4, ![a, b, c, d]⟩ : Shape).Idx → EReal) (init : EReal)
    (h' : (⟨4, ![a, b, c, d]⟩ : Shape).ReducesTo [2, 3] ⟨2, ![a, b]⟩) (i : Fin a) (j : Fin b) :
    Ideal.hostReduceAdd h' x init (ix2 i j) = init + ∑ p : Fin c, ∑ q : Fin d, x (ix4 i j p q) := by
  unfold Ideal.hostReduceAdd
  congr 1
  rw [← Finset.sum_product' Finset.univ Finset.univ (fun p q => x (ix4 i j p q))]
  have hdrop : ∀ k : (⟨4, ![a, b, c, d]⟩ : Shape).Idx, h'.drop k = ix2 i j → k = ix4 i j (k 2) (k 3) := by
    intro k hk
    have e0 : ((h'.drop k) 0 : Nat) = (k 0 : Nat) := h'.drop_apply_val_of_eq k 0 0 (by show (0 : ℕ) < 2; exact Nat.zero_lt_two) (by rfl)
    have e1 : ((h'.drop k) 1 : Nat) = (k 1 : Nat) := h'.drop_apply_val_of_eq k 1 1 (by show (1 : ℕ) < 2; exact Nat.one_lt_two) (by rfl)
    rw [hk] at e0 e1
    funext ax
    apply Fin.ext
    match ax with
    | ⟨0, _⟩ => exact e0.symm
    | ⟨1, _⟩ => exact e1.symm
    | ⟨2, _⟩ => rfl
    | ⟨3, _⟩ => rfl
  refine Finset.sum_nbij' (fun k => ((k 2 : Fin c), (k 3 : Fin d))) (fun pq => ix4 i j pq.1 pq.2) ?_ ?_ ?_ ?_ ?_
  · intro k _
    exact Finset.mem_product.mpr ⟨Finset.mem_univ _, Finset.mem_univ _⟩
  · intro pq _
    refine Finset.mem_filter.mpr ⟨Finset.mem_univ _, ?_⟩
    funext bx
    apply Fin.ext
    match bx with
    | ⟨0, _⟩ => exact h'.drop_apply_val_of_eq (ix4 i j pq.1 pq.2) 0 0 (by show (0 : ℕ) < 2; exact Nat.zero_lt_two) (by rfl)
    | ⟨1, _⟩ => exact h'.drop_apply_val_of_eq (ix4 i j pq.1 pq.2) 1 1 (by show (1 : ℕ) < 2; exact Nat.one_lt_two) (by rfl)
  · intro k hk
    exact (hdrop k (Finset.mem_filter.mp hk).2).symm
  · intro pq _
    rfl
  · intro k hk
    exact congrArg x (hdrop k (Finset.mem_filter.mp hk).2)

end Cert.LibPlanes
-- ==== Proof.PoolValue.lean ====
/-
  The pooling kernel: its result matrix, entry by entry.

  The first kernel walks a 4 × 2 × 4 grid, the last axis fastest: point (i, j, k) holds the input's block of batch
  rows 8i … 8i+7, channels 128j … 128j+127, plane rows 16k … 16k+15 and all 64 lanes, and the 8 × 128 output block
  (i, j), which stays in place over the four steps k and is written back after the fourth.  By the three case values
  the block written back holds, at (p, q), the four steps' partial sums of plane (8i + p, 128j + q) added one after the
  other to zero, times 2⁻¹²: the plane's mean.  The eight written blocks tile the 32 × 256 result matrix: entry (b, c)
  lies in the block written at point (b / 8, c / 128, 3).
-/
import proofs.«105536_j60610578481199_2_alg».proof.Proof.Gen.KernelIdeal.Frame
import proofs.«105536_j60610578481199_2_alg».proof.Proof.PoolCases
import proofs.«105536_j60610578481199_2_alg».proof.Proof.PoolMean
import proofs.«105536_j60610578481199_2_alg».proof.Proof.LibPlanes
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem
open Idealize.ShloMosaic.Pipeline (Dat)
open Idealize.ShloMosaic.ValueIdx Cert.LibPlanes Cert.PoolMean

namespace Cert.KernelIdeal.Pool

open Cert.KernelIdeal Cert.KernelIdeal.Gen

variable (V : (c : Dev nD) → (b : Ref sig .tc) → Buf (Elt Ideal) ((c : Thread nD τ).loc b))

/-- The printed index maps over the 4 × 2 × 4 grid, decided once: point `t` is batch block `t / 8`, channel block
    `t / 4 % 2`, row step `t % 4`. -/
theorem idx_facts : ∀ t : Fin cfg0.N,
    win0_0.index t (0 : Fin 4) = t.val / 8 ∧ win0_0.index t (1 : Fin 4) = t.val / 4 % 2
    ∧ win0_0.index t (2 : Fin 4) = t.val % 4 ∧ win0_0.index t (3 : Fin 4) = 0
    ∧ win0_1.index t (0 : Fin 2) = t.val / 8 ∧ win0_1.index t (1 : Fin 2) = t.val / 4 % 2 :=
  (by decide +kernel : ∀ t : Fin grid0.N, _)

/-! ## The steps, at a point -/

theorem step_A (c : Dev nD) (t : Fin cfg0.N) (h0 : t.val % 4 = 0) (h1 : ¬t.val % 4 = 3) :
    outsAt0 V c t.val t.isLt = addf zero (blockSum (iblk0 V c 0 t)) :=
  (outsAt0_A V c t h0 h1).trans
    (out_A c (grid0.coords t) (ms0_0 t) (hs0_0 t) (ms0_1 t) (hs0_1 t) ((hcond0_0 t).mpr h0) (fun h => h1 ((hcond0_1 t).mp h))
      (iblk0 V c 0 t))

theorem step_B (c : Dev nD) (t : Fin cfg0.N) (h0 : ¬t.val % 4 = 0) (h1 : ¬t.val % 4 = 3) :
    outsAt0 V c t.val t.isLt
      = addf (outsAt0 V c (t.val - 1) (Nat.lt_of_le_of_lt (Nat.sub_le _ _) t.isLt)) (blockSum (iblk0 V c 0 t)) :=
  (outsAt0_B V c t h0 h1).trans
    (out_B c (grid0.coords t) (ms0_0 t) (hs0_0 t) (ms0_1 t) (hs0_1 t) (fun h => h0 ((hcond0_0 t).mp h)) (fun h => h1 ((hcond0_1 t).mp h))
      (iblk0 V c 0 t) (outsAt0 V c (t.val - 1) (Nat.lt_of_le_of_lt (Nat.sub_le _ _) t.isLt)))

theorem step_C (c : Dev nD) (t : Fin cfg0.N) (h0 : ¬t.val % 4 = 0) (h1 : t.val % 4 = 3) :
    outsAt0 V c t.val t.isLt
      = mulf (addf (outsAt0 V c (t.val - 1) (Nat.lt_of_le_of_lt (Nat.sub_le _ _) t.isLt)) (blockSum (iblk0 V c 0 t)))
          (broadcast S8x128 (Scalar.ofBits .f32 0x39800000#32)) :=
  (outsAt0_C V c t h0 h1).trans
    (out_C c (grid0.coords t) (ms0_0 t) (hs0_0 t) (ms0_1 t) (hs0_1 t) (fun h => h0 ((hcond0_0 t).mp h)) ((hcond0_1 t).mpr h1)
      (iblk0 V c 0 t) (outsAt0 V c (t.val - 1) (Nat.lt_of_le_of_lt (Nat.sub_le _ _) t.isLt)))

/-- After a fourth step the block holds the four steps' sums added to zero in order, times 2⁻¹²: the three earlier
    steps are the three points before. -/
theorem outs_fourth (c : Dev nD) (t : Fin cfg0.N) (h3 : t.val % 4 = 3) :
    ∃ t0 t1 t2 : Fin cfg0.N, t0.val + 3 = t.val ∧ t1.val + 2 = t.val ∧ t2.val + 1 = t.val ∧
      outsAt0 V c t.val t.isLt
        = mulf (addf (addf (addf (addf zero (blockSum (iblk0 V c 0 t0))) (blockSum (iblk0 V c 0 t1))) (blockSum (iblk0 V c 0 t2)))
              (blockSum (iblk0 V c 0 t)))
            (broadcast S8x128 (Scalar.ofBits .f32 0x39800000#32)) := by
  have hN : cfg0.N = 32 := N_0
  have hlt : t.val < cfg0.N := t.isLt
  have l2 : t.val - 1 < cfg0.N := by omega
  have l1 : t.val - 1 - 1 < cfg0.N := by omega
  have l0 : t.val - 1 - 1 - 1 < cfg0.N := by omega
  refine ⟨⟨t.val - 1 - 1 - 1, l0⟩, ⟨t.val - 1 - 1, l1⟩, ⟨t.val - 1, l2⟩, by dsimp only; omega, by dsimp only; omega,
    by dsimp only; omega, ?_⟩
  refine (step_C V c t (by omega) h3).trans ?_
  refine congrArg (fun u => mulf (addf u (blockSum (iblk0 V c 0 t))) (broadcast S8x128 (Scalar.ofBits .f32 0x39800000#32))) ?_
  refine (step_B V c ⟨t.val - 1, l2⟩ (by dsimp only; omega) (by dsimp only; omega)).trans ?_
  refine congrArg (fun u => addf u (blockSum (iblk0 V c 0 ⟨t.val - 1, l2⟩))) ?_
  refine (step_B V c ⟨t.val - 1 - 1, l1⟩ (by dsimp only; omega) (by dsimp only; omega)).trans ?_
  refine congrArg (fun u => addf u (blockSum (iblk0 V c 0 ⟨t.val - 1 - 1, l1⟩))) ?_
  exact step_A V c ⟨t.val - 1 - 1 - 1, l0⟩ (by dsimp only; omega) (by dsimp only; omega)

/-! ## The block's entries -/

/-- An input block's sum at `(p, q)`: sixteen rows of 64 lanes. -/
theorem blockSum_apply (x : FVec Ideal S8x128x16x64 .f32) (p : Fin 8) (q : Fin 128) :
    blockSum x (ix2 p q) = ∑ l : Fin 16, ∑ w : Fin 64, x (ix4 p q l w) := by
  unfold blockSum
  exact multiReduction_plane_apply x 0x00000000#32 0x00000000#32 reduces_S8x128x16x64_S8x128x16 reduces_S8x128x16_S8x128
    (.inl rfl) rfl rfl p q

/-- The fourth step's total at `(p, q)`, over any four input blocks. -/
theorem total_apply (x0 x1 x2 x3 : FVec Ideal S8x128x16x64 .f32) (p : Fin 8) (q : Fin 128) :
    mulf (addf (addf (addf (addf zero (blockSum x0)) (blockSum x1)) (blockSum x2)) (blockSum x3))
        (broadcast S8x128 (Scalar.ofBits .f32 0x39800000#32)) (ix2 p q)
      = ((((Ideal.ofBits .f32 0x00000000#32 + ∑ l : Fin 16, ∑ w : Fin 64, x0 (ix4 p q l w))
            + ∑ l : Fin 16, ∑ w : Fin 64, x1 (ix4 p q l w)) + ∑ l : Fin 16, ∑ w : Fin 64, x2 (ix4 p q l w))
          + ∑ l : Fin 16, ∑ w : Fin 64, x3 (ix4 p q l w)) * Ideal.ofBits .f32 0x39800000#32 := by
  rw [← blockSum_apply x0 p q, ← blockSum_apply x1 p q, ← blockSum_apply x2 p q, ← blockSum_apply x3 p q]
  rfl

/-- The input block of the point `3 - k` steps before a fourth step `t`, at `(p, q, l, w)`: the input array at batch
    row `8 (t / 8) + p`, channel `128 (t / 4 % 2) + q`, plane row `16 k + l`, lane `w`. -/
theorem iblk_entry (c : Dev nD) (s t : Fin cfg0.N) (k : ℕ) (hk : s.val + 3 = t.val + k) (h3 : t.val % 4 = 3)
    (p : Fin 8) (q : Fin 128) (l : Fin 16) (w : Fin 64) (b' : Fin 32) (c' : Fin 256)
    (hb : b'.val = t.val / 8 * 8 + p.val) (hc : c'.val = t.val / 4 % 2 * 128 + q.val) (hrow : k * 16 + l.val < 64) :
    iblk0 V c 0 s (ix4 p q l w) = V c main_arg0 (ix4 b' c' (⟨k * 16 + l.val, hrow⟩ : Fin 64) w) := by
  obtain ⟨e0, e1, e2, e3, -, -⟩ := idx_facts s
  have hN : cfg0.N = 32 := N_0
  have hs : s.val < cfg0.N := s.isLt
  have ht : t.val < cfg0.N := t.isLt
  show V c main_arg0 (((cfg0.win 0).blk s).view.emb (ix4 p q l w)) = _
  refine congrArg (V c main_arg0) (funext fun a => Fin.ext ?_)
  match a with
  | ⟨0, _⟩ => show win0_0.index s (0 : Fin 4) * 8 + 1 * p.val = b'.val; rw [e0, hb]; omega
  | ⟨1, _⟩ => show win0_0.index s (1 : Fin 4) * 128 + 1 * q.val = c'.val; rw [e1, hc]; omega
  | ⟨2, _⟩ => show win0_0.index s (2 : Fin 4) * 16 + 1 * l.val = k * 16 + l.val; rw [e2]; omega
  | ⟨3, _⟩ => show win0_0.index s (3 : Fin 4) * 64 + 1 * w.val = w.val; rw [e3]; omega

/-! ## From blocks to the matrix -/

/-- What a fourth step writes back is its block of the plane means of the input array as the region finds it. -/
theorem flushed_eq (c : Dev nD) (t : Fin cfg0.N) (hf : (cfg0.win 1).flush t = true) :
    (dat0 V c).flushed 1 t = ((cfg0.win 1).blk t).view.read (Elt Ideal) (planeMean (V c main_arg0)) := by
  have h3 : t.val % 4 = 3 := (flush0_1 t).mp hf
  have hN : cfg0.N = 32 := N_0
  have ht : t.val < cfg0.N := t.isLt
  show (cfg0.win 1).cut (grid0.coords t) ((dat0 V c).after 1 t) = _
  rw [after0_1]
  obtain ⟨t0, t1, t2, d0, d1, d2, hout⟩ := outs_fourth V c t h3
  rw [hout]
  obtain ⟨-, -, -, -, f0, f1⟩ := idx_facts t
  funext y
  obtain ⟨p, q, rfl⟩ : ∃ (p : Fin 8) (q : Fin 128), y = ix2 p q := ⟨y 0, y 1, eq_ix2 y⟩
  have hb : t.val / 8 * 8 + p.val < 32 := by omega
  have hc : t.val / 4 % 2 * 128 + q.val < 256 := by omega
  show mulf (addf (addf (addf (addf zero (blockSum (iblk0 V c 0 t0))) (blockSum (iblk0 V c 0 t1))) (blockSum (iblk0 V c 0 t2)))
        (blockSum (iblk0 V c 0 t))) (broadcast S8x128 (Scalar.ofBits .f32 0x39800000#32)) (ix2 p q)
    = planeMean (V c main_arg0) (((cfg0.win 1).blk t).view.emb (ix2 p q))
  have he : ((cfg0.win 1).blk t).view.emb (ix2 p q)
      = ix2 (⟨t.val / 8 * 8 + p.val, hb⟩ : Fin 32) (⟨t.val / 4 % 2 * 128 + q.val, hc⟩ : Fin 256) := by
    funext a; apply Fin.ext
    match a with
    | ⟨0, _⟩ => show win0_1.index t (0 : Fin 2) * 8 + 1 * p.val = t.val / 8 * 8 + p.val; rw [f0]; omega
    | ⟨1, _⟩ => show win0_1.index t (1 : Fin 2) * 128 + 1 * q.val = t.val / 4 % 2 * 128 + q.val; rw [f1]; omega
  rw [he]
  refine (total_apply (iblk0 V c 0 t0) (iblk0 V c 0 t1) (iblk0 V c 0 t2) (iblk0 V c 0 t) p q).trans ?_
  refine planeMean_blocks (V c main_arg0) ⟨_, hb⟩ ⟨_, hc⟩ _ _ _ _ (fun l => ?_) (fun l => ?_) (fun l => ?_) (fun l => ?_)
  · exact Finset.sum_congr rfl fun w _ => iblk_entry V c t0 t 0 (by omega) h3 p q l w _ _ rfl rfl (by omega)
  · exact Finset.sum_congr rfl fun w _ => iblk_entry V c t1 t 1 (by omega) h3 p q l w _ _ rfl rfl (by omega)
  · exact Finset.sum_congr rfl fun w _ => iblk_entry V c t2 t 2 (by omega) h3 p q l w _ _ rfl rfl (by omega)
  · exact Finset.sum_congr rfl fun w _ => iblk_entry V c t t 3 (by omega) h3 p q l w _ _ rfl rfl (by omega)

/-- An index of the result matrix is in point `t`'s block iff each coordinate is in the block's range on its axis. -/
theorem mem_blk (t : Fin cfg0.N) (z : S32x256.Idx) :
    z ∈ ((cfg0.win 1).blk t).view.set ↔ ∀ a : Fin 2, win0_1.index t a * S8x128.size a ≤ (z a).val
      ∧ (z a).val < win0_1.index t a * S8x128.size a + S8x128.size a := by
  show z ∈ ((View.whole main_v0).slice (win0_1.rect t)).set ↔ _
  rw [View.set_slice_whole, Rect.mem_set_unit]
  exact Iff.rfl

/-- The result matrix after the region: the plane means of the input array. Entry `(b, c)` is written at the fourth
    step of batch block `b / 8` and channel block `c / 128`. -/
theorem final (c : Dev nD) : (dat0 V c).arrAt 1 cfg0.N = planeMean (V c main_arg0) :=
  (dat0 V c).arrAt_eq_of_cover 1 (planeMean (V c main_arg0)) (fun t hf => flushed_eq V c t hf) fun z => by
    have hz0 : (z 0).val < 32 := (z 0).isLt
    have hz1 : (z 1).val < 256 := (z 1).isLt
    have hN : cfg0.N = 32 := N_0
    have hlt : (z 0).val / 8 * 8 + (z 1).val / 128 * 4 + 3 < cfg0.N := by omega
    obtain ⟨-, -, -, -, f0, f1⟩ := idx_facts ⟨(z 0).val / 8 * 8 + (z 1).val / 128 * 4 + 3, hlt⟩
    refine ⟨⟨(z 0).val / 8 * 8 + (z 1).val / 128 * 4 + 3, hlt⟩, (flush0_1 _).mpr (by dsimp only; omega), ?_⟩
    rw [mem_blk]
    intro a
    match a with
    | ⟨0, _⟩ =>
      show win0_1.index ⟨(z 0).val / 8 * 8 + (z 1).val / 128 * 4 + 3, hlt⟩ (0 : Fin 2) * 8 ≤ (z 0).val
        ∧ (z 0).val < win0_1.index ⟨(z 0).val / 8 * 8 + (z 1).val / 128 * 4 + 3, hlt⟩ (0 : Fin 2) * 8 + 8
      rw [f0]; dsimp only; omega
    | ⟨1, _⟩ =>
      show win0_1.index ⟨(z 0).val / 8 * 8 + (z 1).val / 128 * 4 + 3, hlt⟩ (1 : Fin 2) * 128 ≤ (z 1).val
        ∧ (z 1).val < win0_1.index ⟨(z 0).val / 8 * 8 + (z 1).val / 128 * 4 + 3, hlt⟩ (1 : Fin 2) * 128 + 128
      rw [f1]; dsimp only; omega

end Cert.KernelIdeal.Pool

end
-- ==== Proof.ScaleValue.lean ====
/-
  The scaling kernel: its result array, entry by entry.

  The second kernel walks a 4 × 8 grid.  At point (i, k) it holds the input's block of batch rows 8i … 8i+7, all 256
  channels, plane rows 8k … 8k+7 and all 64 lanes, beside the gate matrix's rows 8i … 8i+7, and writes back the input
  block with every entry multiplied by the gate of its own batch row and channel.  The 32 blocks tile the result array:
  entry (b, c, h, w) lies in the block of point (b / 8, h / 8).  So the result array is, entry by entry, the input array
  times the gate matrix at the entry's batch row and channel — whatever the two arrays held when the kernel started.
-/
import proofs.«105536_j60610578481199_2_alg».proof.Proof.Gen.KernelIdeal.Frame
import proofs.«105536_j60610578481199_2_alg».proof.Proof.LibPlanes
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem
open Idealize.ShloMosaic.Pipeline (Dat)
open Idealize.ShloMosaic.ValueIdx Cert.LibPlanes

namespace Cert.KernelIdeal.Scale

open Cert.KernelIdeal Cert.KernelIdeal.Gen

variable (V : (c : Dev nD) → (b : Ref sig .tc) → Buf (Elt Ideal) ((c : Thread nD τ).loc b))

theorem hz2 : (![0, 0] : Fin 2 → Nat) = fun _ => 0 := funext fun a => by fin_cases a <;> rfl
theorem hz4 : (![0, 0, 0, 0] : Fin 4 → Nat) = fun _ => 0 := funext fun a => by fin_cases a <;> rfl

/-- Every entry of the array times the number its plane has in the matrix. -/
def scaled (X : S32x256x64x64.Idx → EReal) (g : S32x256.Idx → EReal) : S32x256x64x64.Idx → EReal :=
  fun z => X z * g (ix2 (n0 := 32) (n1 := 256) (z 0) (z 1))

/-- The body's product at an entry of the block: the input entry times the gate block's entry for its plane. -/
theorem pay_apply (x0 : FVec Ideal S8x256x8x64 .f32) (x1 : FVec Ideal S8x256 .f32) (p : Fin 8) (q : Fin 256) (r : Fin 8) (s : Fin 64) :
    k1_pay1 x0 x1 (ix4 p q r s) = x0 (ix4 p q r s) * x1 (ix2 p q) := by
  unfold k1_pay1
  rw [mulf_apply, broadcastTo_ab11_abcd_apply, shapeCast_self, shapeCast_ab_ab11_apply, shapeCast_self]

/-- The printed index maps over the 4 × 8 grid, decided once: point `t` is batch block `t / 8`, row block `t % 8`. -/
theorem idx_facts : ∀ t : Fin cfg1.N,
    win1_0.index t (0 : Fin 4) = t.val / 8 ∧ win1_0.index t (1 : Fin 4) = 0 ∧ win1_0.index t (2 : Fin 4) = t.val % 8 ∧ win1_0.index t (3 : Fin 4) = 0
    ∧ win1_1.index t (0 : Fin 2) = t.val / 8 ∧ win1_1.index t (1 : Fin 2) = 0
    ∧ win1_2.index t (0 : Fin 4) = t.val / 8 ∧ win1_2.index t (1 : Fin 4) = 0 ∧ win1_2.index t (2 : Fin 4) = t.val % 8 ∧ win1_2.index t (3 : Fin 4) = 0 :=
  (by decide +kernel : ∀ t : Fin grid1.N, _)

/-- What point `t` writes back is its block of the whole-array product. -/
theorem flushed_eq (c : Dev nD) (t : Fin cfg1.N) :
    (dat1 V c).flushed 2 t = ((cfg1.win 2).blk t).view.read (Elt Ideal) (scaled (V c main_arg0) (V c main_v15)) := by
  show (cfg1.win 2).cut (grid1.coords t) ((dat1 V c).after 2 t) = _
  rw [after1_2]
  unfold out1_2
  rw [View.canon_unit_zero hz4]
  simp only [View.ld_unit_zero (S := S8x256x8x64) hz4, View.ld_unit_zero (S := S8x256) hz2]
  obtain ⟨e0, e1, e2, e3, f0, f1, g0, g1, g2, g3⟩ := idx_facts t
  funext y
  obtain ⟨p, q, r, s, rfl⟩ : ∃ (p : Fin 8) (q : Fin 256) (r : Fin 8) (s : Fin 64), y = ix4 p q r s :=
    ⟨y 0, y 1, y 2, y 3, eq_ix4 y⟩
  show k1_pay1 (iblk1 V c 0 t) (iblk1 V c 1 t) (ix4 p q r s)
    = scaled (V c main_arg0) (V c main_v15) (((cfg1.win 2).blk t).view.emb (ix4 p q r s))
  refine (pay_apply (iblk1 V c 0 t) (iblk1 V c 1 t) p q r s).trans ?_
  have h0 : ((cfg1.win 0).blk t).view.emb (ix4 p q r s) = ((cfg1.win 2).blk t).view.emb (ix4 p q r s) := by
    funext a; apply Fin.ext
    match a with
    | ⟨0, _⟩ => show win1_0.index t (0 : Fin 4) * 8 + 1 * p.val = win1_2.index t (0 : Fin 4) * 8 + 1 * p.val; omega
    | ⟨1, _⟩ => show win1_0.index t (1 : Fin 4) * 256 + 1 * q.val = win1_2.index t (1 : Fin 4) * 256 + 1 * q.val; omega
    | ⟨2, _⟩ => show win1_0.index t (2 : Fin 4) * 8 + 1 * r.val = win1_2.index t (2 : Fin 4) * 8 + 1 * r.val; omega
    | ⟨3, _⟩ => show win1_0.index t (3 : Fin 4) * 64 + 1 * s.val = win1_2.index t (3 : Fin 4) * 64 + 1 * s.val; omega
  have h1 : ((cfg1.win 1).blk t).view.emb (ix2 p q)
      = ix2 (n0 := 32) (n1 := 256) ((((cfg1.win 2).blk t).view.emb (ix4 p q r s)) 0) ((((cfg1.win 2).blk t).view.emb (ix4 p q r s)) 1) := by
    funext a; apply Fin.ext
    match a with
    | ⟨0, _⟩ => show win1_1.index t (0 : Fin 2) * 8 + 1 * p.val = win1_2.index t (0 : Fin 4) * 8 + 1 * p.val; omega
    | ⟨1, _⟩ => show win1_1.index t (1 : Fin 2) * 256 + 1 * q.val = win1_2.index t (1 : Fin 4) * 256 + 1 * q.val; omega
  unfold scaled
  refine congrArg₂ (fun u v : EReal => u * v) ?_ ?_
  · show V c main_arg0 (((cfg1.win 0).blk t).view.emb (ix4 p q r s)) = V c main_arg0 _
    rw [h0]
  · show V c main_v15 (((cfg1.win 1).blk t).view.emb (ix2 p q)) = V c main_v15 _
    rw [h1]

/-- An index of the result array is in point `t`'s block iff each coordinate is in the block's range on its axis. -/
theorem mem_blk (t : Fin cfg1.N) (z : S32x256x64x64.Idx) :
    z ∈ ((cfg1.win 2).blk t).view.set ↔ ∀ a : Fin 4, win1_2.index t a * S8x256x8x64.size a ≤ (z a).val
      ∧ (z a).val < win1_2.index t a * S8x256x8x64.size a + S8x256x8x64.size a := by
  show z ∈ ((View.whole main_v16).slice (win1_2.rect t)).set ↔ _
  rw [View.set_slice_whole, Rect.mem_set_unit]
  exact Iff.rfl

/-- The result array after the region: the input array times the gate of each entry's batch row and channel. The
    point whose block holds entry `(b, c, h, w)` is `(b / 8, h / 8)`. -/
theorem final (c : Dev nD) : (dat1 V c).arrAt 2 cfg1.N = scaled (V c main_arg0) (V c main_v15) :=
  (dat1 V c).arrAt_eq_of_cover 2 (scaled (V c main_arg0) (V c main_v15)) (fun t _ => flushed_eq V c t) fun z => by
    have hz0 : (z 0).val < 32 := (z 0).isLt
    have hz1 : (z 1).val < 256 := (z 1).isLt
    have hz2' : (z 2).val < 64 := (z 2).isLt
    have hz3 : (z 3).val < 64 := (z 3).isLt
    have hN : cfg1.N = 32 := N_1
    have hlt : (z 0).val / 8 * 8 + (z 2).val / 8 < cfg1.N := by omega
    obtain ⟨e0, e1, e2, e3, f0, f1, g0, g1, g2, g3⟩ := idx_facts ⟨(z 0).val / 8 * 8 + (z 2).val / 8, hlt⟩
    refine ⟨⟨(z 0).val / 8 * 8 + (z 2).val / 8, hlt⟩, flush1_2 _, ?_⟩
    rw [mem_blk]
    intro a
    match a with
    | ⟨0, _⟩ =>
      show win1_2.index ⟨(z 0).val / 8 * 8 + (z 2).val / 8, hlt⟩ (0 : Fin 4) * 8 ≤ (z 0).val
        ∧ (z 0).val < win1_2.index ⟨(z 0).val / 8 * 8 + (z 2).val / 8, hlt⟩ (0 : Fin 4) * 8 + 8
      rw [g0]; dsimp only; omega
    | ⟨1, _⟩ =>
      show win1_2.index ⟨(z 0).val / 8 * 8 + (z 2).val / 8, hlt⟩ (1 : Fin 4) * 256 ≤ (z 1).val
        ∧ (z 1).val < win1_2.index ⟨(z 0).val / 8 * 8 + (z 2).val / 8, hlt⟩ (1 : Fin 4) * 256 + 256
      rw [g1]; omega
    | ⟨2, _⟩ =>
      show win1_2.index ⟨(z 0).val / 8 * 8 + (z 2).val / 8, hlt⟩ (2 : Fin 4) * 8 ≤ (z 2).val
        ∧ (z 2).val < win1_2.index ⟨(z 0).val / 8 * 8 + (z 2).val / 8, hlt⟩ (2 : Fin 4) * 8 + 8
      rw [g2]; dsimp only; omega
    | ⟨3, _⟩ =>
      show win1_2.index ⟨(z 0).val / 8 * 8 + (z 2).val / 8, hlt⟩ (3 : Fin 4) * 64 ≤ (z 3).val
        ∧ (z 3).val < win1_2.index ⟨(z 0).val / 8 * 8 + (z 2).val / 8, hlt⟩ (3 : Fin 4) * 64 + 64
      rw [g3]; omega

end Cert.KernelIdeal.Scale

end
-- ==== Proof.Between.lean ====
/-
  Between the two kernels: the gate.

  After the pooling region the host multiplies the pooled matrix by the transpose of the first weight matrix, adds the
  first bias, clips below at zero, multiplies by the transpose of the second weight matrix, adds the second bias and
  applies the logistic function.  None of these nineteen operations writes an argument buffer or the pooled matrix, so
  at the scaling region's entry the gate buffer holds that function of the pooled matrix as the pooling region left it
  and of the four parameter arrays as launched, and the input array is still as launched.
-/
import proofs.«105536_j60610578481199_2_alg».proof.Proof.Gen.KernelIdeal.Frame
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.StableHlo

namespace Cert.KernelIdeal.Between

open Cert.KernelIdeal Cert.KernelIdeal.Gen

variable {F : FTy → Type} [FloatOps F]

/-- The gate matrix from the pooled matrix `s` and the four parameters: `s` times the transpose of `w1` plus `b1`,
    clipped below at zero, times the transpose of `w2` plus `b2`, through the logistic function `1 / (1 + exp (-u))`. -/
def gate (s : FVec F S32x256 .f32) (w1 : FVec F S16x256 .f32) (b1 : FVec F S16 .f32) (w2 : FVec F S256x16 .f32)
    (b2 : FVec F S256 .f32) : FVec F S32x256 .f32 :=
  Host.divf (broadcastInDim S32x256 ![] bcast_S_S32x256 (constant (F := F) S_ .f32 0x3F800000#32))
    (addf (broadcastInDim S32x256 ![] bcast_S_S32x256 (constant (F := F) S_ .f32 0x3F800000#32))
      (Host.exp (Host.negf (addf
        (Host.dotGeneral dot_S32x16_S256x16_S32x256_1_1_0_0_n_n none
          (maximumf (addf (Host.dotGeneral dot_S32x256_S16x256_S32x16_1_1_0_0_n_n none s w1)
              (broadcastInDim S32x16 ![0, 1] bcast_S1x16_S32x16_0_1 (broadcastInDim S1x16 ![1] bcast_S16_S1x16_1 b1)))
            (broadcastInDim S32x16 ![] bcast_S_S32x16 (constant (F := F) S_ .f32 0x00000000#32)))
          w2)
        (broadcastInDim S32x256 ![0, 1] bcast_S1x256_S32x256_0_1 (broadcastInDim S1x256 ![1] bcast_S256_S1x256_1 b2))))))

variable (m : (ℓ : Loc nD τ sig) → Buf (Elt F) ℓ) (ρ : Dev nD → PrngReg)

/-- At the scaling region's entry the gate buffer holds the gate of the pooled matrix and the launched parameters. -/
theorem gate_entry (c : Dev nD) :
    W4 m ρ c (Proc.devRef .tc main_v15)
      = gate (W1 m ρ c (Proc.devRef .tc main_v0)) (m ((c : Thread nD τ).loc main_arg1)) (m ((c : Thread nD τ).loc main_arg2))
          (m ((c : Thread nD τ).loc main_arg3)) (m ((c : Thread nD τ).loc main_arg4)) := by
  show StableHlo.after hostOps1_2 (StableHlo.after hostOps1_1 (StableHlo.after hostOps1 (W1 m ρ c))) (Proc.devRef .tc main_v15) = _
  after_results
  rw [W1_of_ne m ρ c main_arg1 (by decide), W1_of_ne m ρ c main_arg2 (by decide), W1_of_ne m ρ c main_arg3 (by decide),
    W1_of_ne m ρ c main_arg4 (by decide)]
  rfl

/-- The input array is untouched up to the second region's entry. -/
theorem arg0_entry (c : Dev nD) : W4 m ρ c (Proc.devRef .tc main_arg0) = m ((c : Thread nD τ).loc main_arg0) :=
  ((W5_arr m ρ c 0).trans (((dat1 (V4 m ρ) c).arrAt_in 0 rfl _).trans (A_eq1 (V4 m ρ) c 0))).symm.trans (W5_main_arg0 m ρ c)

end Cert.KernelIdeal.Between

end
-- ==== Proof.Whole.lean ====
/-
  The idealized kernel's result as one function of the launched arrays.

  Reading the last boundary's contents back through the run: the result buffer holds what the scaling region leaves,
  the input array times the gate of each entry's plane; the gate buffer at that region's entry holds the gate of the
  pooled matrix; the pooled matrix is what the pooling region leaves, the plane means of the input array; and the input
  and parameter arrays are as launched throughout.  So every execution ends with the result at
  `x · gate (mean of x's planes)`, entry by entry.
-/
import proofs.«105536_j60610578481199_2_alg».proof.Proof.KernelRun
import proofs.«105536_j60610578481199_2_alg».proof.Proof.PoolValue
import proofs.«105536_j60610578481199_2_alg».proof.Proof.ScaleValue
import proofs.«105536_j60610578481199_2_alg».proof.Proof.Between

set_option maxRecDepth 16384

noncomputable section

open Idealize.ShloMosaic Idealize.ShloMosaic.TcCoe Idealize.SL.Sem
open Cert.PoolMean

namespace Cert.KernelIdeal.Whole

open Cert.KernelIdeal Cert.KernelIdeal.Gen Cert.KernelIdeal.Scale Cert.KernelIdeal.Between

/-- The specification: every entry of `x` times the gate, computed from the plane means of `x`, of its plane. -/
def excite (x : FVec Ideal S32x256x64x64 .f32) (w1 : FVec Ideal S16x256 .f32) (b1 : FVec Ideal S16 .f32)
    (w2 : FVec Ideal S256x16 .f32) (b2 : FVec Ideal S256 .f32) : FVec Ideal S32x256x64x64 .f32 :=
  scaled x (gate (F := Ideal) (planeMean x) w1 b1 w2 b2)

variable (m : (ℓ : Loc nD τ sig) → Buf (Elt Ideal) ℓ) (ρ : Dev nD → PrngReg)

/-- The last boundary's contents at the result buffer are the specification of the launched arrays. -/
theorem result_eq (c : Dev nD) :
    W5 m ρ c (Proc.devRef .tc main_v16)
      = excite (m ((c : Thread nD τ).loc main_arg0)) (m ((c : Thread nD τ).loc main_arg1)) (m ((c : Thread nD τ).loc main_arg2))
          (m ((c : Thread nD τ).loc main_arg3)) (m ((c : Thread nD τ).loc main_arg4)) := by
  refine (W5_arr m ρ c 2).trans ?_
  rw [Scale.final (V4 m ρ) c]
  show scaled (W4 m ρ c (Proc.devRef .tc main_arg0)) (W4 m ρ c (Proc.devRef .tc main_v15)) = _
  rw [arg0_entry, gate_entry]
  have hp : W1 m ρ c (Proc.devRef .tc main_v0) = (dat0 (V0 m ρ) c).arrAt 1 cfg0.N := W1_arr m ρ c 1
  rw [hp, Pool.final (V0 m ρ) c]
  rfl

/-- Every weakly fair execution of the idealized kernel terminates, nothing faulting, with the result at the
    specification of the launched arrays and the arguments unchanged. -/
theorem run : θ_run defs (onTc (τ := τ) (main (F := Ideal))) ⟨m, fun _ => 0, ρ⟩ (fun r => ∀ c : Dev nD,
      r.2.mem ((c.tc : Thread nD τ).loc main_v16)
        = excite (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (result_eq m ρ c), (h c).2⟩) (Cert.KernelIdeal.Run.run_named m ρ)

end Cert.KernelIdeal.Whole

end
-- ==== Proof.RefValue.lean ====
/-
  The reference, read where it differs from the kernel.

  The reference pools by one host sum over the two plane axes, from zero, divided by 4096: at (b, c) that is the plane
  mean of the specification.  After its gate it spreads the gate matrix over the planes by two broadcasts, [32, 256] to
  [32, 256, 1, 1] to [32, 256, 64, 64], and multiplies: entry (b, c, h, w) of the spread gate is the gate at (b, c).
-/
import proofs.«105536_j60610578481199_2_alg».proof.Proof.Gen.ReferenceIdeal.Read
import proofs.«105536_j60610578481199_2_alg».proof.Proof.PoolMean
import proofs.«105536_j60610578481199_2_alg».proof.Proof.LibPlanes

noncomputable section

open Idealize.ShloMosaic Idealize.ShloMosaic.TcCoe Idealize.SL.Sem
open Idealize.ShloMosaic.ValueIdx Cert.LibPlanes Cert.PoolMean

namespace Cert.ReferenceIdeal.RefValue

open Cert.ReferenceIdeal Cert.ReferenceIdeal.Gen Cert.ReferenceIdeal.Read

/-- The reference's pooled matrix is the plane mean. -/
theorem pooled_eq (X : FVec Ideal S32x256x64x64 .f32) : val_main_v2 (F := Ideal) X = planeMean X := by
  funext bc
  obtain ⟨b, c, rfl⟩ : ∃ (b : Fin 32) (c : Fin 256), bc = ix2 b c := ⟨bc 0, bc 1, eq_ix2 bc⟩
  rw [val_main_v2_apply, val_main_v1_apply, val_main_cst_0_apply]
  unfold val_main_v0 planeMean
  show Ideal.div (Ideal.hostReduceAdd reducesTo_S32x256x64x64_S32x256_d2_3 X (Ideal.ofBits .f32 0x00000000#32) (ix2 b c))
      (Ideal.ofBits .f32 0x45800000#32) = _
  rw [hostReduceAdd_plane_apply]

/-- The two broadcasts' composed index: entry `(b, c, h, w)` reads the gate at `(b, c)`. -/
theorem spread_idx (b : Fin 32) (c : Fin 256) (h w : Fin 64) :
    idx_main_v18 (idx_main_v19 (ix4 b c h w)) = ix2 b c := by
  funext a
  match a with
  | ⟨0, _⟩ => rfl
  | ⟨1, _⟩ => rfl

end Cert.ReferenceIdeal.RefValue

end
-- ==== Proof.Bridge.lean ====
/-
  The reference computes the specification.

  Both programs form the gate by the same nineteen host operations; they differ before it — the reference pools by one
  sum and a quotient, the kernel in four steps and a product with 2⁻¹² — and after it — the reference spreads the gate
  over the planes by two broadcasts, the kernel block by block.  Entry by entry the reference's result is the input
  entry times the gate, computed from the plane means, of the entry's plane: the function the kernel's run ends at.
-/
import proofs.«105536_j60610578481199_2_alg».proof.Proof.Whole
import proofs.«105536_j60610578481199_2_alg».proof.Proof.RefValue

noncomputable section

open Idealize.ShloMosaic Idealize.ShloMosaic.TcCoe Idealize.SL.Sem
open Idealize.ShloMosaic.ValueIdx Cert.PoolMean

namespace Cert.ReferenceIdeal.RefValue

open Cert.ReferenceIdeal Cert.ReferenceIdeal.Gen Cert.ReferenceIdeal.Read

/-- The reference's gate stage is the kernel's gate of the reference's pooled matrix: the same operations in the same
    order on the same shapes. -/
theorem gate_stage (X : (⟨S32x256x64x64, .f32⟩ : BufTy).Contents (Elt Ideal)) (w1 : (⟨S16x256, .f32⟩ : BufTy).Contents (Elt Ideal))
    (b1 : (⟨S16, .f32⟩ : BufTy).Contents (Elt Ideal)) (w2 : (⟨S256x16, .f32⟩ : BufTy).Contents (Elt Ideal))
    (b2 : (⟨S256, .f32⟩ : BufTy).Contents (Elt Ideal)) :
    val_main_v17 (F := Ideal) X w1 b1 w2 b2
      = Cert.KernelIdeal.Between.gate (F := Ideal) (val_main_v2 (F := Ideal) X) w1 b1 w2 b2 := rfl

/-- The reference's result is the specification of its arguments. -/
theorem result_eq (X : (⟨S32x256x64x64, .f32⟩ : BufTy).Contents (Elt Ideal)) (w1 : (⟨S16x256, .f32⟩ : BufTy).Contents (Elt Ideal))
    (b1 : (⟨S16, .f32⟩ : BufTy).Contents (Elt Ideal)) (w2 : (⟨S256x16, .f32⟩ : BufTy).Contents (Elt Ideal))
    (b2 : (⟨S256, .f32⟩ : BufTy).Contents (Elt Ideal)) :
    val_main_v20 (F := Ideal) X w1 b1 w2 b2 = Cert.KernelIdeal.Whole.excite X w1 b1 w2 b2 := by
  funext z
  obtain ⟨b, c, h, w, rfl⟩ : ∃ (b : Fin 32) (c : Fin 256) (h w : Fin 64), z = ix4 b c h w := ⟨z 0, z 1, z 2, z 3, eq_ix4 z⟩
  rw [val_main_v20_apply, val_main_v19_apply, val_main_v18_apply, spread_idx, gate_stage, pooled_eq]
  rfl

end Cert.ReferenceIdeal.RefValue

end
-- ==== Proof.lean ====
/-
  A squeeze-and-excite block in two kernels, against its plain reference: the five claims.

  The program takes an array x of 32 × 256 planes of 64 × 64 numbers and four parameter arrays.  It averages every
  plane, turns the 32 × 256 matrix of averages into a gate matrix by two small matrix products, a clip at zero and the
  logistic function, and multiplies every plane by its own gate.  The kernel averages in a first grid of blocks, four
  row-steps per plane accumulated in place and scaled by 2⁻¹² at the end, and multiplies in a second grid of blocks; the
  reference averages by one sum divided by 4096 and multiplies through two broadcasts.

  Read at the exact extended reals the two programs end at one function of the launched arrays, entry by entry.  The
  four steps' partial sums added in order are the plane's whole sum, because addition of extended reals is commutative
  and associative whatever the summands; multiplying by the real 1/4096 is dividing by the real 4096, whatever the
  dividend; the gate is formed by the same operations on both sides; and every entry meets the gate of its own plane on
  both sides.  None of this needs the inputs to be finite, so the precondition is never opened.

  The frames of the two kernels are the generated ones; the reference's frame is its generated run with the result
  dropped.  The ideal pass rewrote nothing, so the kernel's idealization is its own text and that claim is `True`.
-/
import proofs.«105536_j60610578481199_2_alg».proof.Defs
import proofs.«105536_j60610578481199_2_alg».proof.Proof.Gen.Kernel
import proofs.«105536_j60610578481199_2_alg».proof.Proof.Gen.Kernel.Skeleton
import proofs.«105536_j60610578481199_2_alg».proof.Proof.Gen.Kernel.Launch
import proofs.«105536_j60610578481199_2_alg».proof.Proof.Gen.Kernel.Points
import proofs.«105536_j60610578481199_2_alg».proof.Proof.Gen.Kernel.Frame
import proofs.«105536_j60610578481199_2_alg».proof.Proof.Gen.KernelIdeal
import proofs.«105536_j60610578481199_2_alg».proof.Proof.Gen.KernelIdeal.Skeleton
import proofs.«105536_j60610578481199_2_alg».proof.Proof.Gen.KernelIdeal.Launch
import proofs.«105536_j60610578481199_2_alg».proof.Proof.Gen.KernelIdeal.Points
import proofs.«105536_j60610578481199_2_alg».proof.Proof.Gen.KernelIdeal.Frame
import proofs.«105536_j60610578481199_2_alg».proof.Proof.Gen.ReferenceIdeal
import proofs.«105536_j60610578481199_2_alg».proof.Proof.Gen.ReferenceIdeal.Run
import proofs.«105536_j60610578481199_2_alg».proof.Proof.Gen.ReferenceIdeal.Read
import proofs.«105536_j60610578481199_2_alg».proof.Proof.Gen.Pre_finite_inputs
import proofs.«105536_j60610578481199_2_alg».proof.Proof.Whole
import proofs.«105536_j60610578481199_2_alg».proof.Proof.Bridge
import Idealize.ShloMosaic.Adequacy
import Idealize.ShloMosaic.Init

noncomputable section

namespace Cert.Proof

open Idealize.ShloMosaic Idealize.SL.Sem

/-- The kernel as printed runs and leaves its arguments as launched. -/
theorem frame_kernel : Cert.frame_Kernel := fun m ρ _ => Cert.Kernel.Gen.frame m ρ

/-- So does the kernel read at the exact extended reals. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories that agree on the arguments both programs end at `x · gate (mean of x's planes)`: the kernel's run
    read back through its two regions, the reference's run read at an entry. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, Cert.ReferenceIdeal.RefValue.result_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
